-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x32 : Shape := ⟨2, ![128, 32]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x32 : S_.BroadcastsInDim S128x32 (![] : Fin 0 → Fin S128x32.rank)
  reducesTo_S128x32_S_d0_1 : S128x32.ReducesTo [0, 1] S_

variable [Facts]

def fn_part1 {F : FTy → Type} [FloatOps F] (main_arg4 : FVec F S128x32 .f32) (main_arg5 : FVec F S128x32 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128x32 .f32 := Host.absf main_arg5
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  main_v28

def fn {F : FTy → Type} [FloatOps F] (main_arg0 : FVec F S4096x128 .f32) (main_arg1 : FVec F S4096x128 .f32) (main_arg2 : FVec F S4096x4096 .f32) (main_arg3 : FVec F S4096x4096 .f32) (main_arg4 : FVec F S128x32 .f32) (main_arg5 : FVec F S128x32 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S128x32 : Shape := ⟨2, ![128, 32]⟩
abbrev S4096x32 : Shape := ⟨2, ![4096, 32]⟩
abbrev S256x4096 : Shape := ⟨2, ![256, 4096]⟩
abbrev S256x32 : Shape := ⟨2, ![256, 32]⟩

abbrev nBuf : Space → Nat
  | .hbm => 7
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S128x32, .f32⟩
  | .hbm, ⟨5, _⟩ => ⟨S128x32, .f32⟩
  | .hbm, ⟨6, _⟩ => ⟨S4096x32, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x128, .f32⟩
  | .local _ .vmem, ⟨5, _⟩ => ⟨S4096x128, .f32⟩
  | .local _ .vmem, ⟨6, _⟩ => ⟨S128x32, .f32⟩
  | .local _ .vmem, ⟨7, _⟩ => ⟨S128x32, .f32⟩
  | .local _ .vmem, ⟨8, _⟩ => ⟨S256x32, .f32⟩
  | .local _ .vmem, ⟨9, _⟩ => ⟨S256x32, .f32⟩
  | .local _ .vmem, ⟨10, _⟩ => ⟨S4096x32, .f32⟩
  | .local _ .vmem, ⟨11, _⟩ => ⟨S4096x32, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  inb_S128x32_S128x32_0_0 : ∀ a, (![0, 0] : Fin 2 → Nat) a + S128x32.size a ≤ S128x32.size a
  h_S128x32 : 0 < S128x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  dot_S4096x128_S128x32_S4096x32_1_0_0_1_n_n_wf : DotDims.WF S4096x128 S128x32 S4096x32 [1] [0] [0] [1] [] []
  dot_S256x4096_S4096x32_S256x32_1_0_0_1_n_n_wf : DotDims.WF S256x4096 S4096x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S4096x32.size a
  hwx0_6 : ∀ i : grid0.Coords, EltTy.bits .f32 = 32 ∨ (Rect.block (s := S4096x32) S256x32.size (cc0_transform_6 i) (hinb0_6 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf

abbrev win0_0 : Pipeline.Window sig grid0 :=
  Pipeline.Window.ofSpec (Memref.whole main_arg2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x32 : Shape := ⟨2, ![128, 32]⟩
abbrev S4096x32 : Shape := ⟨2, ![4096, 32]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S128x32, .f32⟩
  | .hbm, ⟨5, _⟩ => ⟨S128x32, .f32⟩
  | .hbm, ⟨6, _⟩ => ⟨S4096x32, .f32⟩
  | .hbm, ⟨7, _⟩ => ⟨S4096x32, .f32⟩
  | .hbm, ⟨8, _⟩ => ⟨S_, .f32⟩
  | .hbm, ⟨9, _⟩ => ⟨S4096x32, .f32⟩
  | .hbm, ⟨10, _⟩ => ⟨S4096x32, .i1⟩
  | .hbm, ⟨11, _⟩ => ⟨S_, .f32⟩
  | .hbm, ⟨12, _⟩ => ⟨S4096x32, .f32⟩
  | .hbm, ⟨13, _⟩ => ⟨S4096x32, .i1⟩
  | .hbm, ⟨14, _⟩ => ⟨S_, .f32⟩
  | .hbm, ⟨15, _⟩ => ⟨S_, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S_, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S_, .f32⟩
  | .hbm, ⟨26, _⟩ => ⟨S4096x32, .f32⟩
  | .hbm, ⟨27, _⟩ => ⟨S4096x32, .i1⟩
  | .hbm, ⟨28, _⟩ => ⟨S_, .f32⟩
  | .hbm, ⟨29, _⟩ => ⟨S4096x32, .f32⟩
  | .hbm, ⟨30, _⟩ => ⟨S4096x32, .i1⟩
  | .hbm, ⟨31, _⟩ => ⟨S_, .f32⟩
  | .hbm, ⟨32, _⟩ => ⟨S_, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S_, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_cst_0 : Ref sig .tc := ⟨.hbm, 11, rfl⟩
abbrev main_call0_v2 : Ref sig .tc := ⟨.hbm, 12, rfl⟩
abbrev main_call0_v3 : Ref sig .tc := ⟨.hbm, 13, rfl⟩
abbrev main_call0_cst_1 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_v4 : Ref sig .tc := ⟨.hbm, 17, rfl⟩
abbrev main_call0_v5 : Ref sig .tc := ⟨.hbm, 18, rfl⟩
abbrev main_call0_cst_2 : Ref sig .tc := ⟨.hbm, 19, rfl⟩
abbrev main_call0_v6 : Ref sig .tc := ⟨.hbm, 20, rfl⟩
abbrev main_call0_v7 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_call1_v3 : Ref sig .tc := ⟨.hbm, 30, rfl⟩
abbrev main_call1_cst_1 : Ref sig .tc := ⟨.hbm, 31, rfl⟩
abbrev main_call1_call0_v0 : Ref sig .tc := ⟨.hbm, 32, rfl⟩
abbrev main_call1_call0_v1 : Ref sig .tc := ⟨.hbm, 33, rfl⟩
abbrev main_call1_v4 : Ref sig .tc := ⟨.hbm, 34, rfl⟩
abbrev main_call1_v5 : Ref sig .tc := ⟨.hbm, 35, rfl⟩
abbrev main_call1_cst_2 : Ref sig .tc := ⟨.hbm, 36, rfl⟩
abbrev main_call1_v6 : Ref sig .tc := ⟨.hbm, 37, rfl⟩
abbrev main_call1_v7 : Ref sig .tc := ⟨.hbm, 38, rfl⟩
abbrev main_v5 : Ref sig .tc := ⟨.hbm, 39, rfl⟩
abbrev main_v6 : Ref sig .tc := ⟨.hbm, 40, rfl⟩

abbrev nD : Nat := 1
abbrev τ : Topo := Topo.v7x

variable {F : FTy → Type} [FloatOps F]

class Facts₀ : Prop where
  bcast_S_S4096x32 : S_.BroadcastsInDim S4096x32 (![] : Fin 0 → Fin S4096x32.rank)
  dot_S4096x128_S128x32_S4096x32_1_0_0_1_n_n_wf : DotDims.WF S4096x128 S128x32 S4096x32 [1] [0] [0] [1] [] []
  dot_S4096x4096_S4096x32_S4096x32_1_0_0_1_n_n_wf : DotDims.WF S4096x4096 S4096x32 S4096x32 [1] [0] [0] [1] [] []

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf

class Facts : Prop extends Facts₀ where

variable [Facts]
-- ==== Proof.KernelPieces.lean ====
/-
  What one run of the kernel body leaves behind, as values of its loads.

  The body has two cases.  At the first grid point it projects the features once,
      xw₁ = x₁ · W₁   and   xw₂ = x₂ · W₂   (two matrix products into zero accumulators),
  stores them whole into two scratch arrays that persist across the grid, reads them back, and then computes its output block.
  At every later point it stores nothing into the scratch arrays and computes its output block from what they already hold.
  The output block is always the same expression of four operands: a row block of each neighbourhood matrix and the two
  projected feature arrays,
      out = elu (N₁₁-block · xw₁) + elu (N₂₁-block · xw₂).

  Each statement below says that the contents a case leaves in a buffer — stated by the run as "the stores' pieces read back" —
  is the corresponding expression of the loaded blocks.  Every store covers its buffer whole and every load reads a buffer
  whole, so reading back the one covering piece returns its stored value, and reading a buffer through a whole-buffer
  rectangle returns the buffer's contents.  In the first case the reads of the two scratch arrays see exactly what was just
  stored there.  Nothing here depends on what a float is: the statements hold at every instance.
-/
import proofs.«169399_g27496380629502_cont_9to1_1990_19_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- A rectangle that starts at the origin. -/
theorem hz : (![0, 0] : Fin 2 → Nat) = fun _ => 0 := funext fun a => by fin_cases a <;> rfl

/-- FIRST POINT, first scratch array: it ends holding the projection of the first feature block by the first weight block. -/
theorem sc0_A (c : Dev nD) (i : grid0.Coords) (a1 : Memref sig .tc .vmem S256x4096 .f32) (h1 : a1.IsWhole) (a2 : Memref sig .tc .vmem S256x4096 .f32) (h2 : a2.IsWhole) (a3 : Memref sig .tc .vmem S4096x128 .f32) (h3 : a3.IsWhole) (a4 : Memref sig .tc .vmem S4096x128 .f32) (h4 : a4.IsWhole) (a5 : Memref sig .tc .vmem S128x32 .f32) (h5 : a5.IsWhole) (a6 : Memref sig .tc .vmem S128x32 .f32) (h6 : a6.IsWhole) (a7 : Memref sig .tc .vmem S256x32 .f32) (h7 : a7.IsWhole) (a8 : Memref sig .tc .vmem S4096x32 .f32) (h8 : a8.IsWhole) (a9 : Memref sig .tc .vmem S4096x32 .f32) (h9 : a9.IsWhole) (hc : cond0_0 i)
    (x0 x1 : Vec F S256x4096 .f32) (x2 x3 : Vec F S4096x128 .f32) (x4 x5 : Vec F S128x32 .f32) :
    sout0_A_0 c i a1 h1 a2 h2 a3 h3 a4 h4 a5 h5 a6 h6 a7 h7 a8 h8 a9 h9 hc x0 x1 x2 x3 x4 x5 = k0_pay1 x2 x4 := by
  unfold sout0_A_0
  rw [View.read_writes_eq_canon _ _ _ (scover0_A_0 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h3.read_unread, h5.read_unread, View.ld_unit_zero (S := S4096x128) hz, View.ld_unit_zero (S := S128x32) hz]

/-- FIRST POINT, second scratch array: the projection of the second feature block by the second weight block. -/
theorem sc1_A (c : Dev nD) (i : grid0.Coords) (a1 : Memref sig .tc .vmem S256x4096 .f32) (h1 : a1.IsWhole) (a2 : Memref sig .tc .vmem S256x4096 .f32) (h2 : a2.IsWhole) (a3 : Memref sig .tc .vmem S4096x128 .f32) (h3 : a3.IsWhole) (a4 : Memref sig .tc .vmem S4096x128 .f32) (h4 : a4.IsWhole) (a5 : Memref sig .tc .vmem S128x32 .f32) (h5 : a5.IsWhole) (a6 : Memref sig .tc .vmem S128x32 .f32) (h6 : a6.IsWhole) (a7 : Memref sig .tc .vmem S256x32 .f32) (h7 : a7.IsWhole) (a8 : Memref sig .tc .vmem S4096x32 .f32) (h8 : a8.IsWhole) (a9 : Memref sig .tc .vmem S4096x32 .f32) (h9 : a9.IsWhole) (hc : cond0_0 i)
    (x0 x1 : Vec F S256x4096 .f32) (x2 x3 : Vec F S4096x128 .f32) (x4 x5 : Vec F S128x32 .f32) :
    sout0_A_1 c i a1 h1 a2 h2 a3 h3 a4 h4 a5 h5 a6 h6 a7 h7 a8 h8 a9 h9 hc x0 x1 x2 x3 x4 x5 = k0_pay2 x3 x5 := by
  unfold sout0_A_1
  rw [View.read_writes_eq_canon _ _ _ (scover0_A_1 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h4.read_unread, h6.read_unread, View.ld_unit_zero (S := S4096x128) hz, View.ld_unit_zero (S := S128x32) hz]

/-- FIRST POINT, the output block: the output expression of the two neighbourhood blocks and of the two projections just
    stored (the loads of the scratch arrays read back the covering stores made a moment before). -/
theorem out_A (c : Dev nD) (i : grid0.Coords) (a1 : Memref sig .tc .vmem S256x4096 .f32) (h1 : a1.IsWhole) (a2 : Memref sig .tc .vmem S256x4096 .f32) (h2 : a2.IsWhole) (a3 : Memref sig .tc .vmem S4096x128 .f32) (h3 : a3.IsWhole) (a4 : Memref sig .tc .vmem S4096x128 .f32) (h4 : a4.IsWhole) (a5 : Memref sig .tc .vmem S128x32 .f32) (h5 : a5.IsWhole) (a6 : Memref sig .tc .vmem S128x32 .f32) (h6 : a6.IsWhole) (a7 : Memref sig .tc .vmem S256x32 .f32) (h7 : a7.IsWhole) (a8 : Memref sig .tc .vmem S4096x32 .f32) (h8 : a8.IsWhole) (a9 : Memref sig .tc .vmem S4096x32 .f32) (h9 : a9.IsWhole) (hc : cond0_0 i)
    (x0 x1 : Vec F S256x4096 .f32) (x2 x3 : Vec F S4096x128 .f32) (x4 x5 : Vec F S128x32 .f32) :
    out0_A_6 c i a1 h1 a2 h2 a3 h3 a4 h4 a5 h5 a6 h6 a7 h7 a8 h8 a9 h9 hc x0 x1 x2 x3 x4 x5 = k0_pay3 x0 (k0_pay1 x2 x4) x1 (k0_pay2 x3 x5) := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz, View.readCov_unit_zero (S := S4096x32) _ hz, View.readCov_unit_zero (S := S4096x32) _ hz]
  simp only [View.readAt_eq_ld, h1.read_unread, h2.read_unread, h3.read_unread, h4.read_unread, h5.read_unread, h6.read_unread,
    View.ld_unit_zero (S := S256x4096) hz, View.ld_unit_zero (S := S4096x128) hz, View.ld_unit_zero (S := S128x32) hz]

/-- A LATER POINT, the output block: the same output expression, over what the scratch arrays hold when the point starts. -/
theorem out_B (c : Dev nD) (i : grid0.Coords) (a1 : Memref sig .tc .vmem S256x4096 .f32) (h1 : a1.IsWhole) (a2 : Memref sig .tc .vmem S256x4096 .f32) (h2 : a2.IsWhole) (a3 : Memref sig .tc .vmem S4096x128 .f32) (h3 : a3.IsWhole) (a4 : Memref sig .tc .vmem S4096x128 .f32) (h4 : a4.IsWhole) (a5 : Memref sig .tc .vmem S128x32 .f32) (h5 : a5.IsWhole) (a6 : Memref sig .tc .vmem S128x32 .f32) (h6 : a6.IsWhole) (a7 : Memref sig .tc .vmem S256x32 .f32) (h7 : a7.IsWhole) (a8 : Memref sig .tc .vmem S4096x32 .f32) (h8 : a8.IsWhole) (a9 : Memref sig .tc .vmem S4096x32 .f32) (h9 : a9.IsWhole) (hc : ¬cond0_0 i)
    (x0 x1 : Vec F S256x4096 .f32) (x2 x3 : Vec F S4096x128 .f32) (x4 x5 : Vec F S128x32 .f32) (xs0 xs1 : Vec F S4096x32 .f32) :
    out0_B_6 c i a1 h1 a2 h2 a3 h3 a4 h4 a5 h5 a6 h6 a7 h7 a8 h8 a9 h9 hc x0 x1 x2 x3 x4 x5 xs0 xs1 = k0_pay3 x0 xs0 x1 xs1 := by
  unfold out0_B_6
  rw [View.read_writes_eq_canon _ _ _ (cover0_B_6 c i a1 h1 a2 h2 a3 h3 a4 h4 a5 h5 a6 h6 a7 h7 a8 h8 a9 h9 hc x0 x1 x2 x3 x4 x5 xs0 xs1)]
  unfold kernelRun0_B
  dsimp only
  rw [View.canon_unit_zero hz]
  simp only [View.readAt_eq_ld, h1.read_unread, h2.read_unread, h8.read_unread, h9.read_unread, View.ld_unit_zero (S := S256x4096) hz, View.ld_unit_zero (S := S4096x32) hz]

end Cert.KernelIdeal.Pieces

end
-- ==== Proof.KernelCarried.lean ====
/-
  What the kernel's buffers hold after every grid point, in closed form.

  The grid has sixteen points, visited in order.  Only the first point writes the two scratch arrays, and it writes them with
  the two projected feature arrays  xw₁ = x₁ · W₁  and  xw₂ = x₂ · W₂, computed from the blocks of the feature and weight
  windows at that point.  Every later point leaves the scratch arrays alone.  So after ANY point the scratch arrays hold the
  first point's two projections, and the output block written at point n is the output expression of the n-th row blocks of
  the two neighbourhood matrices and of those same two projections.  The proof is an induction on the point: the first point
  is the storing case, a later point is the non-storing case over what the point before left.
-/
import proofs.«169399_g27496380629502_cont_9to1_1990_19_alg».proof.Proof.KernelPieces

noncomputable section

open Idealize.ShloMosaic Idealize.ShloMosaic.TcCoe Idealize.SL.Sem

namespace Cert.KernelIdeal.Carried

open Cert.KernelIdeal Cert.KernelIdeal.Gen

variable {F : FTy → Type} [FloatOps F]
variable (m : (ℓ : Loc nD τ sig) → Buf (Elt F) ℓ)

/-- The grid's first point. -/
abbrev first : Fin cfg0.N := ⟨0, by rw [show cfg0.N = 16 from N_0]; decide⟩

/-- The first projection, as the first point computes it from its blocks of the first feature and weight windows. -/
def feat1 (c : Dev nD) : Vec F S4096x32 .f32 := k0_pay1 (iblk m c 2 first) (iblk m c 4 first)

/-- The second projection, likewise from the second feature and weight windows. -/
def feat2 (c : Dev nD) : Vec F S4096x32 .f32 := k0_pay2 (iblk m c 3 first) (iblk m c 5 first)

/-- After point `n`: the output's staging buffer holds the output expression of point `n`'s two neighbourhood blocks and of
    the two projections; both scratch arrays hold the projections. -/
theorem outs_eq (c : Dev nD) : ∀ (n : ℕ) (h : n < cfg0.N),
    outsAt0 m c n h = (k0_pay3 (iblk m c 0 ⟨n, h⟩) (feat1 m c) (iblk m c 1 ⟨n, h⟩) (feat2 m c), feat1 m c, feat2 m c)
  | 0, h => by
    rw [outsAt0_A m c ⟨0, h⟩ rfl, Pieces.out_A, Pieces.sc0_A, Pieces.sc1_A]
    rfl
  | n + 1, h => by
    have hN : cfg0.N = 16 := N_0
    have hB : ¬(⟨n + 1, h⟩ : Fin cfg0.N).val % 16 = 0 := by dsimp only; omega
    have ih := outs_eq c n (Nat.lt_of_succ_lt h)
    rw [outsAt0_B m c ⟨n + 1, h⟩ hB, Pieces.out_B]
    unfold sout0_B_0 sout0_B_1
    show (k0_pay3 _ (outsAt0 m c n _).2.1 _ (outsAt0 m c n _).2.2, (outsAt0 m c n _).2.1, (outsAt0 m c n _).2.2) = _
    rw [ih]

end Cert.KernelIdeal.Carried

end
-- ==== Proof.EluForms.lean ====
/-
  The two spellings of ELU agree on every extended real.

  One program writes  elu v = if 0 < v then v else exp (min v 0) - 1,
  the other           elu v = if 0 < v then v else 1 * (exp (if 0 < v then 0 else v) - 1)
  (the second is exp-minus-one of the argument clamped from above by a select, then scaled by alpha = 1).
  On the branch where the comparison fails, v ≤ 0, so  min v 0 = v  and the inner select returns v;
  multiplying by one changes nothing.  No finiteness is used: the identity holds at ±∞ as well
  (at -∞ both sides are 0 - 1).  The threshold is kept as a variable `z`: the identity does not depend on
  its value, only on the same threshold being used by the comparison, the clamp and the select.
-/
import Idealize.ShloMosaic.PureOps.Ideal

namespace Cert.EluForms

open Idealize.ShloMosaic

/-- The clamp-then-exp form and the select-then-expm1 form of ELU are the same function of `v`,
    for any threshold `z` and on all of the extended reals. -/
theorem elu_forms (z v : EReal) :
    (if z < v then v else Ideal.exp (min v z) - 1)
      = (if z < v then v else 1 * (Ideal.exp (if z < v then z else v) - 1)) := by
  by_cases h : z < v
  · simp only [h, if_true]
  · simp only [h, if_false, one_mul]
    rw [min_eq_left (not_lt.mp h)]

end Cert.EluForms
-- ==== Proof.Spec.lean ====
/-
  The specification: what both programs compute, index by index, on the extended reals.

  Inputs: two feature matrices x₁, x₂ (4096 × 128), two neighbourhood matrices N₁₁, N₂₁ (4096 × 4096), two weight matrices
  W₁, W₂ (128 × 32).  Output, at row r and column c:

      G(r, c) = elu (∑ₖ N₁₁(r, k) · (∑ⱼ x₁(k, j) · W₁(j, c)))  +  elu (∑ₖ N₂₁(r, k) · (∑ⱼ x₂(k, j) · W₂(j, c))),

  where  elu v = v  if  0 < v,  and  exp (min v 0) − 1  otherwise.  The sums are sums of extended reals in the order both
  programs associate them: first the projection x · W, then the aggregation N · (x · W).  No regrouping of a sum is needed to
  join the two programs, so no finiteness of the inputs is used anywhere.

  The two float literals that occur, 0.0 and 1.0, are kept as their binary words; the only fact needed about them is that the
  word of 1.0 denotes the extended real 1 (it multiplies the reference's exp-minus-one and is subtracted in the kernel's).
  The second spelling of elu — select, then exp-minus-one, scaled by one — is shown equal to the first on all of the
  extended reals.
-/
import Idealize.ShloMosaic.Lib.ValueIdx
import Idealize.ShloMosaic.PureOps.Ideal.Laws
import proofs.«169399_g27496380629502_cont_9to1_1990_19_alg».proof.Proof.EluForms

noncomputable section

namespace Cert.Spec

open Idealize.ShloMosaic Idealize.ShloMosaic.ValueIdx

/-- The float literal 0.0, as an extended real. -/
abbrev zeroW : EReal := Ideal.ofBits .f32 0x00000000#32
/-- The float literal 1.0, as an extended real. -/
abbrev oneW : EReal := Ideal.ofBits .f32 0x3F800000#32

/-- The word of 1.0 (sign 0, biased exponent 127, fraction 0) denotes 1. -/
theorem oneW_eq : Ideal.ofBits .f32 0x3F800000#32 = 1 := by
  simp [Ideal.ofBits, Ideal.ieee, -EReal.coe_mul]; norm_num

/-- The projected features: (x · W)(k, c). -/
def proj (x : (⟨2, ![4096, 128]⟩ : Shape).Idx → EReal) (w : (⟨2, ![128, 32]⟩ : Shape).Idx → EReal) (k : Fin 4096) (c : Fin 32) : EReal :=
  ∑ j : Fin 128, x (ix2 k j) * w (ix2 j c)

/-- One neighbourhood's aggregation: (N · (x · W))(r, c). -/
def agg (n : (⟨2, ![4096, 4096]⟩ : Shape).Idx → EReal) (x : (⟨2, ![4096, 128]⟩ : Shape).Idx → EReal)
    (w : (⟨2, ![128, 32]⟩ : Shape).Idx → EReal) (r : Fin 4096) (c : Fin 32) : EReal :=
  ∑ k : Fin 4096, n (ix2 r k) * proj x w k c

/-- ELU with unit slope and alpha = 1: the identity above zero, exp − 1 at and below it. -/
def elu (v : EReal) : EReal := if zeroW < v then v else Ideal.exp (min v zeroW) - oneW

/-- The same function in the select-then-exp-minus-one spelling, scaled by the literal one. -/
theorem elu_alt (v : EReal) :
    elu v = if zeroW < v then v else oneW * (Ideal.exp (if zeroW < v then zeroW else v) - 1) := by
  have h1 : oneW = 1 := oneW_eq
  unfold elu
  rw [h1]
  exact Cert.EluForms.elu_forms _ v

/-- The result at row `r`, column `c`. -/
def G (x1 x2 : (⟨2, ![4096, 128]⟩ : Shape).Idx → EReal) (n11 n21 : (⟨2, ![4096, 4096]⟩ : Shape).Idx → EReal)
    (w1 w2 : (⟨2, ![128, 32]⟩ : Shape).Idx → EReal) (r : Fin 4096) (c : Fin 32) : EReal :=
  elu (agg n11 x1 w1 r c) + elu (agg n21 x2 w2 r c)

/-- The result array. -/
def result (x1 x2 : (⟨2, ![4096, 128]⟩ : Shape).Idx → EReal) (n11 n21 : (⟨2, ![4096, 4096]⟩ : Shape).Idx → EReal)
    (w1 w2 : (⟨2, ![128, 32]⟩ : Shape).Idx → EReal) : (⟨2, ![4096, 32]⟩ : Shape).Idx → EReal :=
  fun i => G x1 x2 n11 n21 w1 w2 (i 0) (i 1)

theorem result_ix2 (x1 x2 : (⟨2, ![4096, 128]⟩ : Shape).Idx → EReal) (n11 n21 : (⟨2, ![4096, 4096]⟩ : Shape).Idx → EReal)
    (w1 w2 : (⟨2, ![128, 32]⟩ : Shape).Idx → EReal) (r : Fin 4096) (c : Fin 32) :
    result x1 x2 n11 n21 w1 w2 (ix2 r c) = G x1 x2 n11 n21 w1 w2 r c := rfl

end Cert.Spec

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.KernelPayload.lean ====
/-
  The kernel body's arithmetic, read at one element, at the ideal values.

  The body's output block is one expression of four operands — a 256 × 4096 row block of each neighbourhood matrix and the two
  4096 × 32 projected feature arrays — :   out = elu (A · s₀) + elu (B · s₁),   each product accumulated into zeros.
  At the ideal values a product into a zero accumulator, read at (p, q), is the plain sum  ∑ₖ A(p, k) · s₀(k, q)  (the zero adds
  nothing, there is no rounding and no chunk order), and ELU acts element by element: the comparison with zero decides
  between v and exp (min v 0) − 1.  So entry (p, q) of the block is  elu (∑ₖ A(p, k) s₀(k, q)) + elu (∑ₖ B(p, k) s₁(k, q)).
  Likewise each stored projection, read at (k, c), is  ∑ⱼ x(k, j) · W(j, c)  (the shape cast of a 4096 × 32 value to the same
  shape is the identity).
-/
import proofs.«169399_g27496380629502_cont_9to1_1990_19_alg».proof.Proof.Gen.KernelIdeal.Skeleton
import proofs.«169399_g27496380629502_cont_9to1_1990_19_alg».proof.Proof.Spec
import proofs.«169399_g27496380629502_cont_9to1_1990_19_alg».proof.Proof.LibPlainProduct
import Idealize.ShloMosaic.Lib.Pipeline.Value

noncomputable section

open Idealize.ShloMosaic Idealize.ShloMosaic.ValueIdx

namespace Cert.KernelIdeal.Payload

open Cert.KernelIdeal Cert.KernelIdeal.Gen

/-- The kernel's ELU, read at one element. -/
theorem elu_apply (v : FVec Ideal S256x32 .f32) (i : S256x32.Idx) :
    (select (cmpf .ogt v (broadcast S256x32 (Scalar.ofBits (F := Ideal) .f32 0x00000000#32))) v
      (subf (exp (minimumf v (broadcast S256x32 (Scalar.ofBits (F := Ideal) .f32 0x00000000#32))))
        (broadcast S256x32 (Scalar.ofBits (F := Ideal) .f32 0x3F800000#32)))) i = Cert.Spec.elu (v i) := by
  show Scalar.select (Ideal.cmp .ogt (v i) Cert.Spec.zeroW) (v i) (Ideal.exp (min (v i) Cert.Spec.zeroW) - Cert.Spec.oneW) = _
  unfold Cert.Spec.elu Ideal.cmp Scalar.select
  by_cases h : Cert.Spec.zeroW < v i
  · simp only [h, decide_true, BitVec.ofBool_true, if_true]
  · simp only [h, decide_false, BitVec.ofBool_false, if_false]; rfl

/-- The stored projection at (k, c): the sum over the 128 feature columns of x(k, j) · W(j, c). -/
theorem pay1_apply (x : Vec Ideal S4096x128 .f32) (w : Vec Ideal S128x32 .f32) (k : Fin 4096) (c : Fin 32) :
    k0_pay1 x w (ix2 k c) = Cert.Spec.proj x w k c := by
  unfold k0_pay1
  rw [shapeCast_self]
  exact PlainProduct.matmul_zero_apply (M := 4096) (K := 128) (P := 32) Facts₀.dot_S4096x128_S128x32_S4096x32_1_0_0_1_n_n_wf none x w k c

/-- A row block of a neighbourhood matrix times a projected feature array, at (p, q). -/
theorem blockprod_apply (x : FVec Ideal S256x4096 .f32) (s : FVec Ideal S4096x32 .f32) (p : Fin 256) (q : Fin 32) :
    matmul (F := Ideal) dot_S256x4096_S4096x32_S256x32_1_0_0_1_n_n none x s (constant S256x32 .f32 0x00000000#32) (ix2 p q)
      = ∑ k : Fin 4096, x (ix2 p k) * s (ix2 k q) :=
  PlainProduct.matmul_zero_apply (M := 256) (K := 4096) (P := 32) Facts₀.dot_S256x4096_S4096x32_S256x32_1_0_0_1_n_n_wf none x s p q

/-- The second stored projection at (k, c), likewise. -/
theorem pay2_apply (x : Vec Ideal S4096x128 .f32) (w : Vec Ideal S128x32 .f32) (k : Fin 4096) (c : Fin 32) :
    k0_pay2 x w (ix2 k c) = Cert.Spec.proj x w k c := by
  unfold k0_pay2
  rw [shapeCast_self]
  exact PlainProduct.matmul_zero_apply (M := 4096) (K := 128) (P := 32) Facts₀.dot_S4096x128_S128x32_S4096x32_1_0_0_1_n_n_wf none x w k c

/-- The output block at (p, q): ELU of each of the two block products there, added. -/
theorem pay3_apply (x0 x1 : Vec Ideal S256x4096 .f32) (s0 s1 : Vec Ideal S4096x32 .f32) (p : Fin 256) (q : Fin 32) :
    k0_pay3 x0 s0 x1 s1 (ix2 p q)
      = Cert.Spec.elu (∑ k : Fin 4096, x0 (ix2 p k) * s0 (ix2 k q)) + Cert.Spec.elu (∑ k : Fin 4096, x1 (ix2 p k) * s1 (ix2 k q)) := by
  unfold k0_pay3
  rw [addf_apply, elu_apply, elu_apply, blockprod_apply, blockprod_apply]

/-- THE OUTPUT BLOCK AGAINST THE SPECIFICATION.  If row `p` of each neighbourhood block is row `r` of its matrix, and column
    `q` of each scratch array is column `q` of the corresponding projection, then the block's entry (p, q) is the specified
    result at (r, q). -/
theorem block_value (x0 x1 : Vec Ideal S256x4096 .f32) (s0 s1 : Vec Ideal S4096x32 .f32)
    (X1 X2 : S4096x128.Idx → EReal) (N1 N2 : S4096x4096.Idx → EReal) (W1 W2 : S128x32.Idx → EReal)
    (r : Fin 4096) (p : Fin 256) (q : Fin 32)
    (h0 : ∀ k : Fin 4096, x0 (ix2 p k) = N1 (ix2 r k)) (h1 : ∀ k : Fin 4096, x1 (ix2 p k) = N2 (ix2 r k))
    (hs0 : ∀ k : Fin 4096, s0 (ix2 k q) = Cert.Spec.proj X1 W1 k q) (hs1 : ∀ k : Fin 4096, s1 (ix2 k q) = Cert.Spec.proj X2 W2 k q) :
    k0_pay3 x0 s0 x1 s1 (ix2 p q) = Cert.Spec.G X1 X2 N1 N2 W1 W2 r q := by
  rw [pay3_apply]
  unfold Cert.Spec.G Cert.Spec.agg
  simp only [h0, h1, hs0, hs1]

end Cert.KernelIdeal.Payload

end
-- ==== Proof.KernelArray.lean ====
/-
  From blocks to the array: after the kernel's run the result array holds the specification, index by index.

  The grid's sixteen points write back sixteen disjoint blocks of 256 rows; point t writes rows 256·t … 256·t + 255, all
  32 columns.  The windows of the two neighbourhood matrices move with the output: their block at point t is the same 256
  rows, all 4096 columns.  The four windows of the features and weights never move and stage their whole arrays.  So what
  point t writes back at (p, q) is the body's output expression of row 256·t + p of each neighbourhood matrix and of the
  two projections of the whole feature and weight arrays — the specified result at (256·t + p, q).  Every row r lies in
  exactly the block of point r / 256, so the sixteen blocks cover the array and the array ends holding the specification.
-/
import proofs.«169399_g27496380629502_cont_9to1_1990_19_alg».proof.Proof.Gen.KernelIdeal.Value
import proofs.«169399_g27496380629502_cont_9to1_1990_19_alg».proof.Proof.KernelCarried
import proofs.«169399_g27496380629502_cont_9to1_1990_19_alg».proof.Proof.KernelPayload

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The printed index maps, decided over the sixteen points: the neighbourhood windows and the output window are at block
    row `t`, block column 0; the feature and weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block, as a row of the whole array. -/
def row (t : Fin cfg0.N) (p : Fin 256) : Fin 4096 :=
  ⟨256 * t.val + p.val, by have h := t.isLt; have hN : cfg0.N = 16 := N_0; have hp := p.isLt; omega⟩

/-- Row `p` of window 0's block at point `t` is row 256·t + p of its matrix. -/
theorem nb0_apply (c : Dev nD) (t : Fin cfg0.N) (p : Fin 256) (k : Fin 4096) :
    (iblk m c 0 t : Vec Ideal S256x4096 .f32) (ix2 p k) = (V m c main_arg2 : S4096x4096.Idx → EReal) (ix2 (row t p) k) := by
  have e := idx_facts t
  unfold iblk
  rw [View.read_apply]
  show V m c main_arg2 _ = V m c main_arg2 _
  refine congrArg (V m c main_arg2) ?_
  funext a; apply Fin.ext
  match a with
  | ⟨0, _⟩ => show win0_0.index t (0 : Fin 2) * 256 + 1 * p.val = 256 * t.val + p.val; omega
  | ⟨1, _⟩ => show win0_0.index t (1 : Fin 2) * 4096 + 1 * k.val = k.val; omega

/-- Row `p` of window 1's block at point `t` is row 256·t + p of its matrix. -/
theorem nb1_apply (c : Dev nD) (t : Fin cfg0.N) (p : Fin 256) (k : Fin 4096) :
    (iblk m c 1 t : Vec Ideal S256x4096 .f32) (ix2 p k) = (V m c main_arg3 : S4096x4096.Idx → EReal) (ix2 (row t p) k) := by
  have e := idx_facts t
  unfold iblk
  rw [View.read_apply]
  show V m c main_arg3 _ = V m c main_arg3 _
  refine congrArg (V m c main_arg3) ?_
  funext a; apply Fin.ext
  match a with
  | ⟨0, _⟩ => show win0_1.index t (0 : Fin 2) * 256 + 1 * p.val = 256 * t.val + p.val; omega
  | ⟨1, _⟩ => show win0_1.index t (1 : Fin 2) * 4096 + 1 * k.val = k.val; omega

/-- Window 2 stages its whole array at every point: its block there is the array. -/
theorem w2_eq (c : Dev nD) (t : Fin cfg0.N) :
    (iblk m c 2 t : Vec Ideal S4096x128 .f32) = (V m c main_arg0 : S4096x128.Idx → EReal) := by
  have e := idx_facts t
  funext y
  unfold iblk
  rw [View.read_apply]
  show V m c main_arg0 _ = V m c main_arg0 y
  refine congrArg (V m c main_arg0) ?_
  funext a; apply Fin.ext
  match a with
  | ⟨0, _⟩ => show win0_2.index t (0 : Fin 2) * 4096 + 1 * (y 0).val = (y 0).val; omega
  | ⟨1, _⟩ => show win0_2.index t (1 : Fin 2) * 128 + 1 * (y 1).val = (y 1).val; omega

/-- Window 3 stages its whole array at every point: its block there is the array. -/
theorem w3_eq (c : Dev nD) (t : Fin cfg0.N) :
    (iblk m c 3 t : Vec Ideal S4096x128 .f32) = (V m c main_arg1 : S4096x128.Idx → EReal) := by
  have e := idx_facts t
  funext y
  unfold iblk
  rw [View.read_apply]
  show V m c main_arg1 _ = V m c main_arg1 y
  refine congrArg (V m c main_arg1) ?_
  funext a; apply Fin.ext
  match a with
  | ⟨0, _⟩ => show win0_3.index t (0 : Fin 2) * 4096 + 1 * (y 0).val = (y 0).val; omega
  | ⟨1, _⟩ => show win0_3.index t (1 : Fin 2) * 128 + 1 * (y 1).val = (y 1).val; omega

/-- Window 4 stages its whole array at every point: its block there is the array. -/
theorem w4_eq (c : Dev nD) (t : Fin cfg0.N) :
    (iblk m c 4 t : Vec Ideal S128x32 .f32) = (V m c main_arg4 : S128x32.Idx → EReal) := by
  have e := idx_facts t
  funext y
  unfold iblk
  rw [View.read_apply]
  show V m c main_arg4 _ = V m c main_arg4 y
  refine congrArg (V m c main_arg4) ?_
  funext a; apply Fin.ext
  match a with
  | ⟨0, _⟩ => show win0_4.index t (0 : Fin 2) * 128 + 1 * (y 0).val = (y 0).val; omega
  | ⟨1, _⟩ => show win0_4.index t (1 : Fin 2) * 32 + 1 * (y 1).val = (y 1).val; omega

/-- Window 5 stages its whole array at every point: its block there is the array. -/
theorem w5_eq (c : Dev nD) (t : Fin cfg0.N) :
    (iblk m c 5 t : Vec Ideal S128x32 .f32) = (V m c main_arg5 : S128x32.Idx → EReal) := by
  have e := idx_facts t
  funext y
  unfold iblk
  rw [View.read_apply]
  show V m c main_arg5 _ = V m c main_arg5 y
  refine congrArg (V m c main_arg5) ?_
  funext a; apply Fin.ext
  match a with
  | ⟨0, _⟩ => show win0_5.index t (0 : Fin 2) * 128 + 1 * (y 0).val = (y 0).val; omega
  | ⟨1, _⟩ => show win0_5.index t (1 : Fin 2) * 32 + 1 * (y 1).val = (y 1).val; omega

/-- The first scratch array, at (k, q): the projection of the whole first feature array by the whole first weight array. -/
theorem feat1_apply (c : Dev nD) (k : Fin 4096) (q : Fin 32) :
    Carried.feat1 m c (ix2 k q) = Cert.Spec.proj (V m c main_arg0) (V m c main_arg4) k q := by
  unfold Carried.feat1
  rw [w2_eq m c, w4_eq m c]
  exact Payload.pay1_apply _ _ k q

/-- The second scratch array, at (k, q): the projection of the second feature array by the second weight array. -/
theorem feat2_apply (c : Dev nD) (k : Fin 4096) (q : Fin 32) :
    Carried.feat2 m c (ix2 k q) = Cert.Spec.proj (V m c main_arg1) (V m c main_arg5) k q := by
  unfold Carried.feat2
  rw [w3_eq m c, w5_eq m c]
  exact Payload.pay2_apply _ _ k q

/-- The specification of the argument arrays as the region finds them. -/
abbrev R (c : Dev nD) : S4096x32.Idx → EReal :=
  Cert.Spec.result (V m c main_arg0) (V m c main_arg1) (V m c main_arg2) (V m c main_arg3) (V m c main_arg4) (V m c main_arg5)

/-- WHAT POINT `t` WRITES BACK is block `t` of the specification. -/
theorem flushed_eq (c : Dev nD) (t : Fin cfg0.N) :
    (dats m 0 c).flushed 6 t = ((cfg0.win 6).blk t).view.read (Elt Ideal) (R m c) := by
  have e := idx_facts t
  rw [Value.flushed6, Carried.outs_eq]
  funext y
  obtain ⟨p, q, rfl⟩ : ∃ (p : Fin 256) (q : Fin 32), y = ix2 p q := ⟨y 0, y 1, eq_ix2 y⟩
  rw [View.read_apply]
  have hemb : ((cfg0.win 6).blk t).view.emb (ix2 p q) = ix2 (row t p) q := by
    funext a; apply Fin.ext
    match a with
    | ⟨0, _⟩ => show win0_6.index t (0 : Fin 2) * 256 + 1 * p.val = 256 * t.val + p.val; omega
    | ⟨1, _⟩ => show win0_6.index t (1 : Fin 2) * 32 + 1 * q.val = q.val; omega
  rw [hemb]
  show k0_pay3 (iblk m c 0 t) (Carried.feat1 m c) (iblk m c 1 t) (Carried.feat2 m c) (ix2 p q)
    = Cert.Spec.G (V m c main_arg0) (V m c main_arg1) (V m c main_arg2) (V m c main_arg3) (V m c main_arg4) (V m c main_arg5) (row t p) q
  exact Payload.block_value (iblk m c 0 t) (iblk m c 1 t) (Carried.feat1 m c) (Carried.feat2 m c)
    (V m c main_arg0) (V m c main_arg1) (V m c main_arg2) (V m c main_arg3) (V m c main_arg4) (V m c main_arg5) (row t p) p q
    (nb0_apply m c t p) (nb1_apply m c t p) (fun k => feat1_apply m c k q) (fun k => feat2_apply m c k q)

/-- An index of the array is in point `t`'s block iff each coordinate is in the block's range on its axis. -/
theorem mem_blk (t : Fin cfg0.N) (i : S4096x32.Idx) :
    i ∈ ((cfg0.win 6).blk t).view.set ↔ ∀ a : Fin 2, win0_6.index t a * S256x32.size a ≤ (i a).val ∧ (i a).val < win0_6.index t a * S256x32.size a + S256x32.size a := by
  show i ∈ ((View.whole main_v0).slice (win0_6.rect t)).set ↔ _
  rw [View.set_slice_whole, Rect.mem_set_unit]
  exact Iff.rfl

/-- Every index of the array lies in the block of the point that owns its row: point r / 256. -/
theorem cover (i : S4096x32.Idx) : ∃ t : Fin cfg0.N, (cfg0.win 6).flush t = true ∧ i ∈ ((cfg0.win 6).blk t).view.set := by
  have hN : cfg0.N = 16 := N_0
  have h0 : (i 0).val < 4096 := (i 0).isLt
  have h1 : (i 1).val < 32 := (i 1).isLt
  have ht : (i 0).val / 256 < cfg0.N := by rw [hN]; omega
  have e := idx_facts ⟨(i 0).val / 256, ht⟩
  refine ⟨⟨(i 0).val / 256, ht⟩, flush0_6 _, ?_⟩
  rw [mem_blk]
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    have e60 : win0_6.index ⟨(i 0).val / 256, ht⟩ (0 : Fin 2) = (i 0).val / 256 := e.2.2.2.2.2.2.2.2.2.2.2.2.1
    omega
  | ⟨1, _⟩ =>
    show win0_6.index ⟨(i 0).val / 256, ht⟩ (1 : Fin 2) * 32 ≤ (i 1).val ∧ (i 1).val < win0_6.index ⟨(i 0).val / 256, ht⟩ (1 : Fin 2) * 32 + 32
    have e61 : win0_6.index ⟨(i 0).val / 256, ht⟩ (1 : Fin 2) = 0 := e.2.2.2.2.2.2.2.2.2.2.2.2.2
    omega

/-- THE ARRAY after the run: the specification of the argument arrays. -/
theorem final (c : Dev nD) : (dats m 0 c).arrAt 6 cfg0.N = R m c :=
  (dats m 0 c).arrAt_eq_of_cover 6 (R m c) (fun t _ => flushed_eq m c t) cover

/-- The kernel's run, read: every execution terminates with the result array at the specification of the argument arrays, and
    the arguments unchanged. -/
theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefRun.lean ====
/-
  The reference program's run, read back.

  The reference is a straight line of host operations once its three small helper functions are unfolded at their calls:
  for each of the two neighbourhoods, two matrix products  N · (x · W)  followed by ELU in the form
      elu v = select (v > 0) v (1 · expm1 (select (v > 0) 0 v)),
  (the comparison computed twice, the zero converted to its own type and broadcast, the one broadcast and multiplied in),
  and a final addition of the two.  That makes 2 + 15 + 2 + 15 + 1 = 35 operations, each writing a buffer of its own.
  Running such a line is the library's rule for a sequence of host operations: every execution terminates, each buffer ends
  holding the composition of the operations that lead to it applied to the launch contents of the arguments, and the
  arguments are never written.  The composed term of the result is named `refTerm`.  Nothing here depends on what a float is.
-/
import proofs.«169399_g27496380629502_cont_9to1_1990_19_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 35 operations in order, the calls unfolded: each ELU is fifteen (the zero and its broadcast, the comparison;
    the same three again; the zero, converted, broadcast, the inner select; exp-minus-one; the one, its broadcast, the
    product; the outer select). -/
abbrev ops : List (HloOp τ sig (Elt F)) :=
  [ binary main_arg0 main_arg4 main_v0 ((fun l r => Host.dotGeneral dot_S4096x128_S128x32_S4096x32_1_0_0_1_n_n none l r) : ((⟨S4096x128, .f32⟩ : BufTy).Contents (Elt F) → (⟨S128x32, .f32⟩ : BufTy).Contents (Elt F) → (⟨S4096x32, .f32⟩ : BufTy).Contents (Elt F))),
    binary main_arg2 main_v0 main_v1 ((fun l r => Host.dotGeneral dot_S4096x4096_S4096x32_S4096x32_1_0_0_1_n_n none l r) : ((⟨S4096x4096, .f32⟩ : BufTy).Contents (Elt F) → (⟨S4096x32, .f32⟩ : BufTy).Contents (Elt F) → (⟨S4096x32, .f32⟩ : BufTy).Contents (Elt F))),
    TRef.nullary main_call0.cst (constant S_ .f32 0x00000000#32),
    TRef.unary main_call0.cst main_call0.v0 (broadcastInDim S4096x32 ![] bcast_S_S4096x32),
    TRef.binary (.of main_v1) main_call0.v0 main_call0.v1 (cmpf .ogt),
    TRef.nullary main_call0.cst_0 (constant S_ .f32 0x00000000#32),
    TRef.unary main_call0.cst_0 main_call0.v2 (broadcastInDim S4096x32 ![] bcast_S_S4096x32),
    TRef.binary (.of main_v1) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4096x32 ![] bcast_S_S4096x32),
    TRef.ternary main_call0.v3 main_call0.call0.v1 (.of main_v1) main_call0.call0.v2 select,
    TRef.unary main_call0.call0.v2 main_call0.v5 Host.expm1,
    TRef.nullary main_call0.cst_2 (constant S_ .f32 0x3F800000#32),
    TRef.unary main_call0.cst_2 main_call0.v6 (broadcastInDim S4096x32 ![] bcast_S_S4096x32),
    TRef.binary main_call0.v6 main_call0.v5 main_call0.v7 mulf,
    TRef.ternary main_call0.v1 (.of main_v1) main_call0.v7 main_call0.call1.v0 select,
    binary main_arg1 main_arg5 main_v3 ((fun l r => Host.dotGeneral dot_S4096x128_S128x32_S4096x32_1_0_0_1_n_n none l r) : ((⟨S4096x128, .f32⟩ : BufTy).Contents (Elt F) → (⟨S128x32, .f32⟩ : BufTy).Contents (Elt F) → (⟨S4096x32, .f32⟩ : BufTy).Contents (Elt F))),
    binary main_arg3 main_v3 main_v4 ((fun l r => Host.dotGeneral dot_S4096x4096_S4096x32_S4096x32_1_0_0_1_n_n none l r) : ((⟨S4096x4096, .f32⟩ : BufTy).Contents (Elt F) → (⟨S4096x32, .f32⟩ : BufTy).Contents (Elt F) → (⟨S4096x32, .f32⟩ : BufTy).Contents (Elt F))),
    TRef.nullary main_call1.cst (constant S_ .f32 0x00000000#32),
    TRef.unary main_call1.cst main_call1.v0 (broadcastInDim S4096x32 ![] bcast_S_S4096x32),
    TRef.binary (.of main_v4) main_call1.v0 main_call1.v1 (cmpf .ogt),
    TRef.nullary main_call1.cst_0 (constant S_ .f32 0x00000000#32),
    TRef.unary main_call1.cst_0 main_call1.v2 (broadcastInDim S4096x32 ![] bcast_S_S4096x32),
    TRef.binary (.of main_v4) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4096x32 ![] bcast_S_S4096x32),
    TRef.ternary main_call1.v3 main_call1.call0.v1 (.of main_v4) main_call1.call0.v2 select,
    TRef.unary main_call1.call0.v2 main_call1.v5 Host.expm1,
    TRef.nullary main_call1.cst_2 (constant S_ .f32 0x3F800000#32),
    TRef.unary main_call1.cst_2 main_call1.v6 (broadcastInDim S4096x32 ![] bcast_S_S4096x32),
    TRef.binary main_call1.v6 main_call1.v5 main_call1.v7 mulf,
    TRef.ternary main_call1.v1 (.of main_v4) main_call1.v7 main_call1.call1.v0 select,
    binary main_v2 main_v5 main_v6 (addf : ((⟨S4096x32, .f32⟩ : BufTy).Contents (Elt F) → (⟨S4096x32, .f32⟩ : BufTy).Contents (Elt F) → (⟨S4096x32, .f32⟩ : BufTy).Contents (Elt F))) ]

-- thirty-five binds re-associated
set_option maxRecDepth 2048 in
/-- @main is that straight line: the helper functions unfolded at their calls, sequencing re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub ..⟩

/-- The scalar zero, broadcast over the result shape. -/
abbrev zeros : (⟨S4096x32, .f32⟩ : BufTy).Contents (Elt F) := broadcastInDim S4096x32 ![] bcast_S_S4096x32 (constant S_ .f32 0x00000000#32)
/-- The scalar one, broadcast over the result shape. -/
abbrev ones : (⟨S4096x32, .f32⟩ : BufTy).Contents (Elt F) := broadcastInDim S4096x32 ![] bcast_S_S4096x32 (constant S_ .f32 0x3F800000#32)

/-- ELU as the reference spells it. -/
abbrev eluH (v : (⟨S4096x32, .f32⟩ : BufTy).Contents (Elt F)) : (⟨S4096x32, .f32⟩ : BufTy).Contents (Elt F) :=
  select (cmpf .ogt v zeros) v (mulf ones (Host.expm1 (select (cmpf .ogt v zeros) (broadcastInDim S4096x32 ![] bcast_S_S4096x32 (id (constant S_ .f32 0x00000000#32))) v)))

/-- One neighbourhood's term: N · (x · W). -/
abbrev aggH (n : (⟨S4096x4096, .f32⟩ : BufTy).Contents (Elt F)) (x : (⟨S4096x128, .f32⟩ : BufTy).Contents (Elt F)) (w : (⟨S128x32, .f32⟩ : BufTy).Contents (Elt F)) : (⟨S4096x32, .f32⟩ : BufTy).Contents (Elt F) :=
  Host.dotGeneral dot_S4096x4096_S4096x32_S4096x32_1_0_0_1_n_n none n (Host.dotGeneral dot_S4096x128_S128x32_S4096x32_1_0_0_1_n_n none x w)

/-- The result's composed term. -/
abbrev refTerm (x1 x2 : (⟨S4096x128, .f32⟩ : BufTy).Contents (Elt F)) (n11 n21 : (⟨S4096x4096, .f32⟩ : BufTy).Contents (Elt F)) (w1 w2 : (⟨S128x32, .f32⟩ : BufTy).Contents (Elt F)) : (⟨S4096x32, .f32⟩ : BufTy).Contents (Elt F) :=
  addf (eluH (aggH n11 x1 w1)) (eluH (aggH n21 x2 w2))

/-- On every device, for any float values, from any memory with zero counters: every weakly fair execution of @main terminates
    with the result at `refTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v6).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.HandRun

end
-- ==== Proof.RefValue.lean ====
/-
  The reference's result term is the specification, index by index, at the ideal values.

  The reference computes, for each neighbourhood,  N · (x · W)  with two host matrix products and then ELU in the spelling
      elu v = select (v > 0) v (1 · expm1 (select (v > 0) 0 v)).
  At the ideal values a host matrix product read at (r, c) is the plain sum over the contracted axis, so the nested product
  is  ∑ₖ N(r, k) · ∑ⱼ x(k, j) · W(j, c),  the specification's aggregation; exp-minus-one is  exp − 1;  and the select spelling
  of ELU is the clamp spelling on every extended real (the one literal fact used: the word of 1.0 denotes 1).
-/
import proofs.«169399_g27496380629502_cont_9to1_1990_19_alg».proof.Proof.RefRun
import proofs.«169399_g27496380629502_cont_9to1_1990_19_alg».proof.Proof.Spec
import proofs.«169399_g27496380629502_cont_9to1_1990_19_alg».proof.Proof.LibPlainProduct

noncomputable section

open Idealize.ShloMosaic Idealize.ShloMosaic.ValueIdx

namespace Cert.ReferenceIdeal.RefValue

open Cert.ReferenceIdeal Cert.ReferenceIdeal.Gen

/-- The reference's ELU, read at one element, is the specification's. -/
theorem eluH_apply (v : FVec Ideal S4096x32 .f32) (i : S4096x32.Idx) :
    HandRun.eluH (F := Ideal) v i = Cert.Spec.elu (v i) := by
  rw [Cert.Spec.elu_alt]
  show Scalar.select (Ideal.cmp .ogt (v i) Cert.Spec.zeroW) (v i)
      (Cert.Spec.oneW * (Ideal.exp (Scalar.select (Ideal.cmp .ogt (v i) Cert.Spec.zeroW) Cert.Spec.zeroW (v i)) - 1)) = _
  unfold Ideal.cmp Scalar.select
  by_cases h : Cert.Spec.zeroW < v i
  · simp only [h, decide_true, BitVec.ofBool_true, if_true]
  · simp only [h, decide_false, BitVec.ofBool_false, if_false]; rfl

/-- One neighbourhood's nested product, read at (r, c), is the specification's aggregation. -/
theorem aggH_apply (n : FVec Ideal S4096x4096 .f32) (x : FVec Ideal S4096x128 .f32) (w : FVec Ideal S128x32 .f32)
    (r : Fin 4096) (c : Fin 32) :
    HandRun.aggH (F := Ideal) n x w (ix2 r c) = Cert.Spec.agg n x w r c :=
  (PlainProduct.dotGeneral_apply (M := 4096) (K := 4096) (P := 32) Facts₀.dot_S4096x4096_S4096x32_S4096x32_1_0_0_1_n_n_wf none n _ r c).trans
    (Finset.sum_congr rfl fun k _ => congrArg (n (ix2 r k) * ·)
      (PlainProduct.dotGeneral_apply (M := 4096) (K := 128) (P := 32) Facts₀.dot_S4096x128_S128x32_S4096x32_1_0_0_1_n_n_wf none x w k c))

/-- THE REFERENCE IS THE SPECIFICATION. -/
theorem refTerm_eq (x1 x2 : FVec Ideal S4096x128 .f32) (n11 n21 : FVec Ideal S4096x4096 .f32) (w1 w2 : FVec Ideal S128x32 .f32) :
    HandRun.refTerm (F := Ideal) x1 x2 n11 n21 w1 w2 = Cert.Spec.result x1 x2 n11 n21 w1 w2 := by
  funext i
  obtain ⟨r, c, rfl⟩ : ∃ (r : Fin 4096) (c : Fin 32), i = ix2 r c := ⟨i 0, i 1, eq_ix2 i⟩
  rw [Cert.Spec.result_ix2]
  unfold Cert.Spec.G
  show HandRun.eluH (F := Ideal) (HandRun.aggH n11 x1 w1) (ix2 r c) + HandRun.eluH (F := Ideal) (HandRun.aggH n21 x2 w2) (ix2 r c) = _
  rw [eluH_apply, eluH_apply, aggH_apply, aggH_apply]

end Cert.ReferenceIdeal.RefValue

end
-- ==== Proof.lean ====
/-
  Two message-passing convolutions with ELU, fused in one kernel, against their plain array program.

  Both programs compute, for feature matrices x₁, x₂ (4096 × 128), neighbourhood matrices N₁₁, N₂₁ (4096 × 4096) and weights
  W₁, W₂ (128 × 32),
      out = elu (N₁₁ · (x₁ · W₁)) + elu (N₂₁ · (x₂ · W₂)).

  The kernel walks sixteen blocks of 256 output rows.  At the first block it projects the features once, x · W, into two
  arrays it keeps for the whole walk; at every block it multiplies the block's rows of each neighbourhood matrix by the kept
  projection, applies ELU as  v  if  0 < v  else  exp (min v 0) − 1,  adds the two, and writes the block back.  The plain
  program does the two nested products on whole arrays and spells ELU as
  select (v > 0) v (1 · expm1 (select (v > 0) 0 v)).

  On the extended reals, with every float operation exact:
    * a matrix product into a zero accumulator and a host matrix product are the same sum over the contracted axis, term by
      term and in the same association (projection first, then aggregation), so row 256·t + p of the plain program's product
      is row p of the kernel's t-th block product;
    * the two spellings of ELU are one function of v, at ±∞ too: where the comparison fails, v ≤ 0, so min v 0 = v and the
      inner select returns v, and exp-minus-one is exp − 1; the literal 1.0 denotes 1.
  Neither step regroups or distributes a sum, so the inputs' finiteness is never used.
  The ideal pass rewrote nothing in the kernel, so the kernel's idealization is its own text read at the ideal values.

  The modules: the specification (Spec, over EluForms and the plain-product lemmas); the kernel's body read as values
  (KernelPieces), what its buffers hold after every grid point (KernelCarried), the body's arithmetic at one element
  (KernelPayload), the result array from its sixteen blocks (KernelArray); the plain program's run (RefRun) and its result at
  an index (RefValue).  Here: the five claims.
-/
import proofs.«169399_g27496380629502_cont_9to1_1990_19_alg».proof.Defs
import proofs.«169399_g27496380629502_cont_9to1_1990_19_alg».proof.Proof.Gen.Kernel
import proofs.«169399_g27496380629502_cont_9to1_1990_19_alg».proof.Proof.Gen.Kernel.Skeleton
import proofs.«169399_g27496380629502_cont_9to1_1990_19_alg».proof.Proof.Gen.Kernel.Launch
import proofs.«169399_g27496380629502_cont_9to1_1990_19_alg».proof.Proof.Gen.Kernel.Points
import proofs.«169399_g27496380629502_cont_9to1_1990_19_alg».proof.Proof.Gen.Kernel.Frame
import proofs.«169399_g27496380629502_cont_9to1_1990_19_alg».proof.Proof.Gen.KernelIdeal
import proofs.«169399_g27496380629502_cont_9to1_1990_19_alg».proof.Proof.Gen.KernelIdeal.Skeleton
import proofs.«169399_g27496380629502_cont_9to1_1990_19_alg».proof.Proof.Gen.KernelIdeal.Launch
import proofs.«169399_g27496380629502_cont_9to1_1990_19_alg».proof.Proof.Gen.KernelIdeal.Points
import proofs.«169399_g27496380629502_cont_9to1_1990_19_alg».proof.Proof.Gen.KernelIdeal.Frame
import proofs.«169399_g27496380629502_cont_9to1_1990_19_alg».proof.Proof.Gen.KernelIdeal.Value
import proofs.«169399_g27496380629502_cont_9to1_1990_19_alg».proof.Proof.Gen.ReferenceIdeal
import proofs.«169399_g27496380629502_cont_9to1_1990_19_alg».proof.Proof.Gen.Pre_finite_inputs
import proofs.«169399_g27496380629502_cont_9to1_1990_19_alg».proof.Proof.KernelArray
import proofs.«169399_g27496380629502_cont_9to1_1990_19_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- So does the plain program: its run, with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- Nothing was rewritten on the way to the ideal reading. -/
theorem preserves : Cert.preserves_Kernel_KernelIdeal := trivial

/-- At the ideal values the kernel's result array ends at the specification of its arguments, and the plain program's at
    its composed term of arguments that agree with them — which is the same specification. -/
theorem algebraic : Cert.algebraic_KernelIdeal_ReferenceIdeal := by
  intro m ρ m' ρ' _ hagree
  refine ⟨fun c => Cert.KernelIdeal.Whole.R m c, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.refTerm_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
